-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S_ : Shape := ⟨0, ![]⟩
abbrev S2048x64 : Shape := ⟨2, ![2048, 64]⟩
abbrev S1024x64 : Shape := ⟨2, ![1024, 64]⟩
abbrev S2048x1 : Shape := ⟨2, ![2048, 1]⟩
abbrev S2048 : Shape := ⟨1, ![2048]⟩
abbrev S1024 : Shape := ⟨1, ![1024]⟩
abbrev S1024x1 : Shape := ⟨2, ![1024, 1]⟩
abbrev S64x1024 : Shape := ⟨2, ![64, 1024]⟩
abbrev S2048x1024 : Shape := ⟨2, ![2048, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x1, .f32⟩
  | .hbm, ⟨3, _⟩ => ⟨S_, .f32⟩
  | .hbm, ⟨4, _⟩ => ⟨S_, .f32⟩
  | .local _ .vmem, ⟨0, _⟩ => ⟨S2048x64, .f32⟩
  | .local _ .vmem, ⟨1, _⟩ => ⟨S1024x64, .f32⟩
  | .local _ .vmem, ⟨2, _⟩ => ⟨S1024x64, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x64, .bf16⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S16384x1_S_d0_1 : S16384x1.ReducesTo [0, 1] S_
  h_S_ : 0 < S_.numel
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1x1024_S2048x1024 : S1x1024.Broadcasts S2048x1024
  reduces_S2048x1024_S2048 : S2048x1024.Reduces [1] S2048
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x64_S16384x64_S16384x16384_1_1_0_0_n_n_wf : DotDims.WF S16384x64 S16384x64 S16384x16384 [1] [1] [0] [0] [] []

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.Pieces.lean ====
/-
  What one grid point leaves behind, case by case, as values.

  The body keeps three buffers between the points of a row tile: the output block (the running row minima), the row tile's
  squared norms, and the row tile scaled by −2. The first point of a row tile (case A) fills all three — the minima start
  from +infinity and are met at once with the first column tile —; an inner point (case B) meets the minima with one more
  column tile; the last point (case C) does the same and then adds the squared norms. Each buffer ends a point holding the
  payload of the last store that covers it, the loads inside that payload reading what the buffers held.
-/
import proofs.«135374_j69054484185809_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- CASE A, the output block: +infinity stored, read back, and met with the first column tile, the scaled rows read back
    from the store just made. -/
theorem out_A (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .bf16) (h6 : a6.IsWhole)
    (hc0 : cond0_0 i) (hc1 : ¬cond0_1 i) (x0 : Vec F S2048x64 .f32) (x1 : Vec F S1024x64 .f32) :
    out0_A_2 c i a2 h2 a3 h3 a4 h4 a5 h5 a6 h6 hc0 hc1 x0 x1 = k0_pay4 x1 (k0_pay2 x0) (k0_pay3 (F := F)) := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_cons_unit_zero (S := S2048x1) hz, View.readCov_unit_zero (S := S2048x1) _ hz,
    View.readCov_unit_zero (S := S2048x64) _ hz]
  simp only [View.readAt_eq_ld, h2.read_unread, h3.read_unread, View.ld_unit_zero (S := S2048x64) hz,
    View.ld_unit_zero (S := S1024x64) hz]

/-- CASE A, the squared norms of the row tile. -/
theorem sout_A_0 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .bf16) (h6 : a6.IsWhole)
    (hc0 : cond0_0 i) (hc1 : ¬cond0_1 i) (x0 : Vec F S2048x64 .f32) (x1 : Vec F S1024x64 .f32) :
    sout0_A_0 c i a2 h2 a3 h3 a4 h4 a5 h5 a6 h6 hc0 hc1 x0 x1 = k0_pay1 x0 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_unit_zero (S := S2048x1) hz]
  simp only [View.readAt_eq_ld, h2.read_unread, View.ld_unit_zero (S := S2048x64) hz]

/-- CASE A, the row tile scaled by −2. -/
theorem sout_A_1 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .bf16) (h6 : a6.IsWhole)
    (hc0 : cond0_0 i) (hc1 : ¬cond0_1 i) (x0 : Vec F S2048x64 .f32) (x1 : Vec F S1024x64 .f32) :
    sout0_A_1 c i a2 h2 a3 h3 a4 h4 a5 h5 a6 h6 hc0 hc1 x0 x1 = k0_pay2 x0 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_unit_zero (S := S2048x64) hz]
  simp only [View.readAt_eq_ld, h2.read_unread, View.ld_unit_zero (S := S2048x64) hz]

/-- CASE B, the output block: the running minima met with this point's column tile. -/
theorem out_B (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .bf16) (h6 : a6.IsWhole)
    (hc0 : ¬cond0_0 i) (hc1 : ¬cond0_1 i)
    (x0 : Vec F S2048x64 .f32) (x1 : Vec F S1024x64 .f32) (xo2 : Vec F S2048x1 .f32) (xs0 : Vec F S2048x1 .f32) (xs1 : Vec F S2048x64 .bf16) :
    out0_B_2 c i a2 h2 a3 h3 a4 h4 a5 h5 a6 h6 hc0 hc1 x0 x1 xo2 xs0 xs1 = k0_pay4 x1 xs1 xo2 := by
  unfold out0_B_2
  rw [View.read_writes_eq_canon _ _ _ (cover0_B_2 c i a2 h2 a3 h3 a4 h4 a5 h5 a6 h6 hc0 hc1 x0 x1 xo2 xs0 xs1)]
  unfold kernelRun0_B
  dsimp only
  sl_unfold_words
  rw [View.canon_unit_zero (S := S2048x1) hz]
  simp only [View.readAt_eq_ld, h3.read_unread, h4.read_unread, h6.read_unread, View.ld_unit_zero (S := S2048x64) hz,
    View.ld_unit_zero (S := S1024x64) hz, View.ld_unit_zero (S := S2048x1) hz]

/-- CASE C, the output block: the running minima met with the last column tile, then the squared norms added. -/
theorem out_C (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S2048x1 .f32) (h5 : a5.IsWhole) (a6 : Memref sig .tc .vmem S2048x64 .bf16) (h6 : a6.IsWhole)
    (hc0 : ¬cond0_0 i) (hc1 : cond0_1 i)
    (x0 : Vec F S2048x64 .f32) (x1 : Vec F S1024x64 .f32) (xo2 : Vec F S2048x1 .f32) (xs0 : Vec F S2048x1 .f32) (xs1 : Vec F S2048x64 .bf16) :
    out0_C_2 c i a2 h2 a3 h3 a4 h4 a5 h5 a6 h6 hc0 hc1 x0 x1 xo2 xs0 xs1 = k0_pay5 (k0_pay4 x1 xs1 xo2) xs0 := by
  unfold out0_C_2
  rw [View.read_writes_eq_canon _ _ _ (cover0_C_2 c i a2 h2 a3 h3 a4 h4 a5 h5 a6 h6 hc0 hc1 x0 x1 xo2 xs0 xs1)]
  unfold kernelRun0_C
  dsimp only
  sl_unfold_words
  rw [View.canon_cons_unit_zero (S := S2048x1) hz, View.readCov_unit_zero (S := S2048x1) _ hz]
  simp only [View.readAt_eq_ld, h3.read_unread, h4.read_unread, h5.read_unread, h6.read_unread,
    View.ld_unit_zero (S := S2048x64) hz, View.ld_unit_zero (S := S1024x64) hz, View.ld_unit_zero (S := S2048x1) hz]

end Cert.KernelIdeal.Pieces

end
-- ==== Proof.PayloadAt.lean ====
/-
  The body's arithmetic read at an entry, at the ideal instance.

  Row r of a row tile x (2048 × 64) and column tile y (1024 × 64):
    squared norms          sum_k x_rk^2                                   (one lane sum, kept as a column)
    scaled rows            (−2) · x_rk                                    (the rounding to bf16 is the identity here)
    running minima         min( old_r , min_q ( sum_k s_rk y_qk + sum_k y_qk^2 ) )   from +infinity over the 1024 columns q,
                           s the scaled rows: a matrix product with the transposed column tile, the column tile's squared
                           norms laid along the row and repeated down the rows, and a lane minimum
    the last addition      old_r + n_r
-/
import proofs.«135374_j69054484185809_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayloadAt

open Cert.KernelIdeal Cert.KernelIdeal.Gen

/-- A vector of length a cast to an a × 1 column reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A lane sum of an a × b matrix, read at row r: the sum over the row. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

/-- A lane minimum of an a × b matrix, read at row r: the minimum over the row, from the accumulator's value. -/
theorem rowMin_apply {a b : ℕ} (v : FVec Ideal ⟨2, ![a, b]⟩ .f32) (acc : BitVec 32) (h : (⟨2, ![a, b]⟩ : Shape).Reduces [1] ⟨1, ![a]⟩)
    (hφ : FKind.Formats .f32) (hacc : acc = FKind.minimumf.neutral .f32 hφ) (r : Fin a) :
    multiReduction (F := Ideal) .minimumf [1] ⟨1, ![a]⟩ v acc h hφ hacc (ix1 r)
      = (Finset.univ : Finset (Fin b)).fold min (Ideal.ofBits .f32 acc) (fun q => v (ix2 r q)) := by
  classical
  refine (multiReduction_minimumf_eq_fold v acc h hφ hacc (ix1 r)).trans ?_
  refine (h.fold_filter_drop_single _ _ v (ix1 r)).trans ?_
  refine Finset.fold_congr fun q _ => ?_
  exact congrArg v (funext fun c => Fin.ext (by
      match c with
      | ⟨0, _⟩ => rfl
      | ⟨1, _⟩ => rfl))

/-- THE SQUARED NORMS of a row tile, at row r. -/
theorem pay1_apply (v : FVec Ideal S2048x64 .f32) (r : Fin 2048) :
    k0_pay1 (F := Ideal) v (ix2 r 0) = ∑ k : Fin 64, v (ix2 r k) * v (ix2 r k) := by
  unfold k0_pay1
  refine (congrFun (shapeCast_self _ _) _).trans ?_
  refine (shapeCast_a_a1_apply _ _ r 0).trans ?_
  exact rowSum_apply (mulf v v) _ _ _ r

/-- THE SCALED ROWS of a row tile, at (r, k). -/
theorem pay2_apply (v : FVec Ideal S2048x64 .f32) (r : Fin 2048) (k : Fin 64) :
    k0_pay2 (F := Ideal) v (ix2 r k) = Ideal.ofBits .f32 0xC0000000#32 * v (ix2 r k) := by
  unfold k0_pay2
  exact congrFun (shapeCast_self _ _) _

/-- The start of the running minima: +infinity everywhere. -/
theorem pay3_apply (r : Fin 2048) : k0_pay3 (F := Ideal) (ix2 r 0) = Ideal.ofBits .f32 0x7F800000#32 := rfl

/-- The product of the scaled rows with the transposed column tile, at (r, q): the sum over the 64 coordinates. -/
theorem cross_apply (v8 : FVec Ideal S2048x64 .bf16) (w : FVec Ideal S1024x64 .bf16) (r : Fin 2048) (q : Fin 1024) :
    matmul (F := Ideal) dot_S2048x64_S64x1024_S2048x1024_1_0_0_1_n_n none v8
        (transpose S64x1024 [1, 0] w transposes_S1024x64_p1_0_S64x1024) (constant S2048x1024 .f32 0x00000000#32) (ix2 r q)
      = ∑ k : Fin 64, v8 (ix2 r k) * w (ix2 q k) := by
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r q) ((contrEquiv1 dot_S2048x64_S64x1024_S2048x1024_1_0_0_1_n_n 64 rfl rfl).symm k) = ix2 r k :=
    funext fun c => Fin.ext (by
      match c with
      | ⟨0, _⟩ =>
        show (dot_S2048x64_S64x1024_S2048x1024_1_0_0_1_n_n.lhsIdx (ix2 r q) _ 0).val = r.val
        unfold DotDims.lhsIdx
        rw [dif_neg (show ¬(0 : Fin S2048x64.rank) ∈ dot_S2048x64_S64x1024_S2048x1024_1_0_0_1_n_n.lhsBatch by decide),
          dif_pos (show (0 : Fin S2048x64.rank) ∈ dot_S2048x64_S64x1024_S2048x1024_1_0_0_1_n_n.lhsNonContracting by decide)]
        rfl
      | ⟨1, _⟩ => exact (dot_S2048x64_S64x1024_S2048x1024_1_0_0_1_n_n.lhsIdx_val_of_single rfl (ix2 r q) _).trans hk)
  have er : dot_S2048x64_S64x1024_S2048x1024_1_0_0_1_n_n.rhsIdx (ix2 r q) ((contrEquiv1 dot_S2048x64_S64x1024_S2048x1024_1_0_0_1_n_n 64 rfl rfl).symm k) = ix2 k q :=
    funext fun c => Fin.ext (by
      match c with
      | ⟨0, _⟩ => exact (dot_S2048x64_S64x1024_S2048x1024_1_0_0_1_n_n.rhsIdx_val_of_single rfl (ix2 r q) _).trans hk
      | ⟨1, _⟩ =>
        show (dot_S2048x64_S64x1024_S2048x1024_1_0_0_1_n_n.rhsIdx (ix2 r q) _ 1).val = q.val
        unfold DotDims.rhsIdx
        rw [dif_neg (show ¬(1 : Fin S64x1024.rank) ∈ dot_S2048x64_S64x1024_S2048x1024_1_0_0_1_n_n.rhsBatch by decide),
          dif_pos (show (1 : Fin S64x1024.rank) ∈ dot_S2048x64_S64x1024_S2048x1024_1_0_0_1_n_n.rhsNonContracting by decide)]
        rfl)
  rw [el, er, transpose_ix2_apply]

/-- The column tile's squared norms laid along a row and repeated down the rows, at (r, q): column q's squared norm. -/
theorem colNorm_apply (v3 : FVec Ideal S1024x64 .f32) (r : Fin 2048) (q : Fin 1024) :
    broadcastTo S2048x1024
        (transpose S1x1024 [1, 0]
          (shapeCast S1024x1 (multiReduction (F := Ideal) .add [1] S1024 (mulf v3 v3) 0x00000000#32 reduces_S1024x64_S1024 (.inl rfl) rfl)
            shapeCasts_S1024_S1024x1) transposes_S1024x1_p1_0_S1x1024) broadcasts_S1x1024_S2048x1024 (ix2 r q)
      = ∑ k : Fin 64, v3 (ix2 q k) * v3 (ix2 q k) := by
  refine (broadcastTo_1b_ab_apply _ _ r q).trans ?_
  refine (transpose_ix2_apply _ _ (0 : Fin 1) q).trans ?_
  refine (shapeCast_a_a1_apply _ _ q 0).trans ?_
  exact rowSum_apply (mulf v3 v3) _ _ _ q

/-- THE RUNNING MINIMA after one more column tile, at row r. -/
theorem pay4_apply (v3 : FVec Ideal S1024x64 .f32) (v8 : FVec Ideal S2048x64 .bf16) (v16 : FVec Ideal S2048x1 .f32) (r : Fin 2048) :
    k0_pay4 (F := Ideal) v3 v8 v16 (ix2 r 0)
      = min (v16 (ix2 r 0))
          ((Finset.univ : Finset (Fin 1024)).fold min (Ideal.ofBits .f32 0x7F800000#32) fun q =>
            (∑ k : Fin 64, v8 (ix2 r k) * v3 (ix2 q k)) + ∑ k : Fin 64, v3 (ix2 q k) * v3 (ix2 q k)) := by
  unfold k0_pay4
  refine congrArg₂ min ?_ ?_
  · exact congrFun (shapeCast_self v16 _) _
  · refine (shapeCast_a_a1_apply _ _ r 0).trans ?_
    refine (rowMin_apply _ _ _ _ _ r).trans ?_
    refine Finset.fold_congr fun q _ => ?_
    exact congrArg₂ (· + ·) (cross_apply v8 (truncf .bf16 v3 bitsLt_bf16_f32) r q) (colNorm_apply v3 r q)

/-- THE LAST ADDITION, at row r. -/
theorem pay5_apply (v23 v25 : FVec Ideal S2048x1 .f32) (r : Fin 2048) :
    k0_pay5 (F := Ideal) v23 v25 (ix2 r 0) = v23 (ix2 r 0) + v25 (ix2 r 0) := by
  unfold k0_pay5
  exact congrArg (· + v25 (ix2 r 0)) (congrFun (shapeCast_self v23 _) _)

end Cert.KernelIdeal.PayloadAt

end
-- ==== Proof.DistLaw.lean ====
/-
  The mathematics that joins the two programs, free of any program.

  For points a_i, b_j in R^D write  sq(x) = sum_k x_k^2  and  dot(a,b) = sum_k a_k b_k.  One side computes, per row i,
      ( min_j ( sum_k (-2 a_ik) b_jk + sq(b_j) ) ) + sq(a_i),
  the minimum taken tile by tile over consecutive blocks of T columns, starting from +infinity; the other computes
      min_j ( (0 + sq(a_i)) + (0 + sq(b_j)) - 2 dot(a_i, b_j) ),
  also from +infinity.  Over the reals the two agree: the factor -2 leaves the sum, adding sq(a_i) commutes with a minimum,
  and a minimum over all columns is the minimum of the minima over the tiles.  The extended reals need the entries to be real
  for the first two steps (distributivity fails at infinities); the third is order theory only.
-/
import Idealize.ShloMosaic.PureOps.Ideal

noncomputable section

namespace Cert.DistMin

open Finset

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {M : ℕ}

/-- The minimum, from +infinity, of `f` over the columns below `T * p`: what the running minimum holds after `p` tiles of
    `T` columns. -/
def prefMin (f : Fin M → EReal) (T p : ℕ) : EReal := (univ.filter fun j : Fin M => j.val < T * p).fold min ⊤ f

/-- Before the first tile the running minimum is +infinity. -/
theorem prefMin_zero (f : Fin M → EReal) (T : ℕ) : prefMin f T 0 = ⊤ := by
  unfold prefMin
  rw [show (univ.filter fun j : Fin M => j.val < T * 0) = ∅ from by
    ext j; simp]
  rfl

/-- Once the tiles reach the last column the running minimum is the minimum over every column. -/
theorem prefMin_full (f : Fin M → EReal) (T p : ℕ) (h : M ≤ T * p) : prefMin f T p = univ.fold min ⊤ f := by
  unfold prefMin
  rw [show (univ.filter fun j : Fin M => j.val < T * p) = univ from by
    ext j; simp; exact lt_of_lt_of_le j.isLt h]

/-- One tile more: the running minimum after `p` tiles, met with the minimum (from +infinity) over tile `p`'s `T` columns
    `col 0 … col (T-1)`, is the running minimum after `p + 1` tiles. -/
theorem min_prefMin_tile (f : Fin M → EReal) (T p : ℕ) (col : Fin T → Fin M) (hcol : ∀ q, (col q).val = T * p + q.val) :
    min (prefMin f T p) (univ.fold min ⊤ (f ∘ col)) = prefMin f T (p + 1) := by
  unfold prefMin
  refine eq_of_forall_le_iff fun c => ?_
  rw [le_min_iff, Finset.le_fold_min, Finset.le_fold_min, Finset.le_fold_min]
  constructor
  · rintro ⟨⟨h0, h1⟩, _, h2⟩
    refine ⟨h0, fun j hj => ?_⟩
    have hj' : j.val < T * (p + 1) := (Finset.mem_filter.1 hj).2
    by_cases hlt : j.val < T * p
    · exact h1 j (Finset.mem_filter.2 ⟨Finset.mem_univ _, hlt⟩)
    · have hq : j.val - T * p < T := by rw [Nat.mul_succ] at hj'; omega
      have e : col ⟨j.val - T * p, hq⟩ = j := Fin.ext (by rw [hcol]; simp only; omega)
      have := h2 ⟨j.val - T * p, hq⟩ (Finset.mem_univ _)
      rw [Function.comp_apply, e] at this
      exact this
  · rintro ⟨h0, h1⟩
    refine ⟨⟨h0, fun j hj => h1 j (Finset.mem_filter.2 ⟨Finset.mem_univ _, ?_⟩)⟩, h0, fun q _ => ?_⟩
    · have := (Finset.mem_filter.1 hj).2; rw [Nat.mul_succ]; omega
    · exact h1 (col q) (Finset.mem_filter.2 ⟨Finset.mem_univ _, by rw [hcol, Nat.mul_succ]; have := q.isLt; omega⟩)

/-- Adding a real to a minimum taken from +infinity adds it to every term. -/
theorem fold_min_add_coe {ι : Type*} (s : Finset ι) (f : ι → EReal) (α : ℝ) :
    s.fold min ⊤ f + (α : EReal) = s.fold min ⊤ (fun j => f j + (α : EReal)) := by
  have h := Finset.fold_hom (op := min) (op' := min) (m := fun x : EReal => x + (α : EReal)) (b := (⊤ : EReal)) (f := f) (s := s)
    (fun x y => (min_add_add_right x y (α : EReal)).symm)
  rw [EReal.top_add_coe] at h
  exact h.symm

variable {N D : ℕ}

/-- THE LAW. For real points, row `i`'s value on the one side — the minimum over the columns of
    `sum_k (-2 a_ik) b_jk + sq(b_j)`, then `+ sq(a_i)` — is its value on the other — the minimum over the columns of
    `(0 + sq(a_i)) + (0 + sq(b_j)) - 2 dot(a_i, b_j)`. -/
theorem row_law (a : Fin N → Fin D → ℝ) (b : Fin M → Fin D → ℝ) (i : Fin N) :
    (univ.fold min ⊤ fun j : Fin M =>
        (∑ k, (((-2 : ℝ) : EReal) * (a i k : EReal)) * (b j k : EReal)) + ∑ k, (b j k : EReal) * (b j k : EReal))
      + ∑ k, (a i k : EReal) * (a i k : EReal)
    = univ.fold min ⊤ fun j : Fin M =>
        (((0 : EReal) + ∑ k, (a i k : EReal) * (a i k : EReal)) + ((0 : EReal) + ∑ k, (b j k : EReal) * (b j k : EReal)))
          - ((2 : ℝ) : EReal) * ∑ k, (a i k : EReal) * (b j k : EReal) := by
  have hα : (∑ k, (a i k : EReal) * (a i k : EReal)) = ((∑ k, a i k * a i k : ℝ) : EReal) := by
    rw [coe_sum]; exact Finset.sum_congr rfl fun k _ => (EReal.coe_mul _ _).symm
  rw [hα, fold_min_add_coe]
  refine Finset.fold_congr fun j _ => ?_
  have h1 : (∑ k, (((-2 : ℝ) : EReal) * (a i k : EReal)) * (b j k : EReal)) = ((∑ k, (-2 * a i k) * b j k : ℝ) : EReal) := by
    rw [coe_sum]; exact Finset.sum_congr rfl fun k _ => by rw [EReal.coe_mul, EReal.coe_mul]
  have h2 : (∑ k, (b j k : EReal) * (b j k : EReal)) = ((∑ k, b j k * b j k : ℝ) : EReal) := by
    rw [coe_sum]; exact Finset.sum_congr rfl fun k _ => (EReal.coe_mul _ _).symm
  have h3 : (∑ k, (a i k : EReal) * (b j k : EReal)) = ((∑ k, a i k * b j k : ℝ) : EReal) := by
    rw [coe_sum]; exact Finset.sum_congr rfl fun k _ => (EReal.coe_mul _ _).symm
  rw [h1, h2, h3, zero_add, zero_add, ← EReal.coe_add, ← EReal.coe_add, ← EReal.coe_add, ← EReal.coe_mul, ← EReal.coe_sub]
  refine congrArg _ ?_
  have h4 : (∑ k, (-2 * a i k) * b j k) = -2 * ∑ k, a i k * b j k := by
    rw [Finset.mul_sum]; exact Finset.sum_congr rfl fun k _ => by ring
  rw [h4]; ring

end Cert.DistMin

end
-- ==== Proof.LibFinite.lean ====
/-
  General lemmas: an array that passes the finiteness check holds only reals.

  The check is jnp's `all(|x| < +inf)`: the absolute value elementwise, compared below the f32 word of +infinity, and-reduced to
  one bit. At the ideal instance a float is an extended real and |x| is max x (−x); it is below +infinity exactly when x is
  neither infinity, that is, when x is (the coercion of) a real.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Lib.Finite

open Idealize.ShloMosaic Idealize.ShloMosaic.ValueIdx

/-- The f32 word `0x7F800000` denotes +infinity. -/
theorem ofBits_inf_f32 : Ideal.ofBits .f32 0x7F800000#32 = (⊤ : EReal) := by
  simp [Ideal.ofBits, Ideal.ieee]

/-- An extended real whose absolute value compares below +infinity is a real. -/
theorem real_of_abs_lt_top (x : EReal) (h : Ideal.cmp .olt (max x (-x)) (⊤ : EReal) = 1#1) : ∃ r : ℝ, x = (r : EReal) := by
  have h' : max x (-x) < ⊤ := by
    unfold Ideal.cmp at h
    by_contra hc
    simp [hc] at h
  induction x using EReal.rec with
  | bot => simp at h'
  | coe r => exact ⟨r, rfl⟩
  | top => simp at h'

/-- Every entry of a float array that passes `all(|x| < +inf)` at the ideal instance is a real. -/
theorem real_of_all_finite {S : Shape} {axes : List (Fin S.rank)} (x : FVec Ideal S .f32)
    (bc : (⟨0, ![]⟩ : Shape).BroadcastsInDim S ![]) (rd : S.ReducesTo axes (⟨0, ![]⟩ : Shape))
    (hu : 0 < (⟨0, ![]⟩ : Shape).numel) (j : (⟨0, ![]⟩ : Shape).Idx)
    (e : Host.reduce IntOp.andi
          (cmpf .olt (Host.absf x) (broadcastInDim S ![] bc (constant (F := Ideal) (⟨0, ![]⟩ : Shape) .f32 0x7F800000#32)))
          (constantI (⟨0, ![]⟩ : Shape) 1 1#1) rd hu j = 1#1) (i : S.Idx) :
    ∃ r : ℝ, x i = (r : EReal) := by
  haveI : Subsingleton (⟨0, ![]⟩ : Shape).Idx := ⟨fun a b => funext fun d => d.elim0⟩
  have h := Host.reduce_andi_all _ _ rd hu j e i
  rw [cmpf_apply, broadcastInDim_scalar_apply, constant_apply, ofBits_inf_f32] at h
  exact real_of_abs_lt_top (x i) h

end Cert.Lib.Finite

end
-- ==== Proof.Steps.lean ====
/-
  One grid point's effect on the three kept buffers, as facts about rows of the two argument arrays.

  Grid point t works on row tile t / 16 (rows 2048·(t/16) + r) and column tile t % 16 (columns 1024·(t%16) + q). Write, for
  a row i and a column j of the argument arrays A and B,
      pd i j = sum_k ((−2)·A_ik)·B_jk + sum_k B_jk^2        sqn i = sum_k A_ik^2 .
  THE INVARIANT after point t, for every row r of the tile: the squared-norm buffer holds sqn of the row, the scaled buffer
  holds (−2)·A of the row, and the output block holds the minimum of pd over the columns of the first t%16 + 1 column tiles —
  except after the tile's last point (t % 16 = 15), where it holds the minimum over all columns plus sqn of the row.
-/
import proofs.«135374_j69054484185809_2_alg».proof.Proof.PayloadAt
import proofs.«135374_j69054484185809_2_alg».proof.Proof.DistLaw
import proofs.«135374_j69054484185809_2_alg».proof.Proof.LibFinite

noncomputable section

open Idealize.ShloMosaic Idealize.ShloMosaic.ValueIdx

namespace Cert.KernelIdeal.Steps

open Cert.KernelIdeal Cert.KernelIdeal.Gen Cert.KernelIdeal.PayloadAt Cert.DistMin

/-- The row of the arrays that row r of point t's row tile is. -/
def rowAt (t : ℕ) (ht : t < 128) (r : Fin 2048) : Fin 16384 := ⟨2048 * (t / 16) + r.val, by have := r.isLt; omega⟩
/-- The column (a row of the second array) that column q of point t's column tile is. -/
def colAt (t : ℕ) (ht : t < 128) (q : Fin 1024) : Fin 16384 := ⟨1024 * (t % 16) + q.val, by have := q.isLt; omega⟩

/-- Row i's squared norm. -/
def sqn (A : FVec Ideal S16384x64 .f32) (i : Fin 16384) : EReal := ∑ k : Fin 64, A (ix2 i k) * A (ix2 i k)
/-- Column j's term for row i before the row's own squared norm is added. -/
def pd (A B : FVec Ideal S16384x64 .f32) (i j : Fin 16384) : EReal :=
  (∑ k : Fin 64, (Ideal.ofBits .f32 0xC0000000#32 * A (ix2 i k)) * B (ix2 j k)) + ∑ k : Fin 64, B (ix2 j k) * B (ix2 j k)

/-- THE INVARIANT after point t (see the header). -/
def Inv (A B : FVec Ideal S16384x64 .f32) (t : ℕ) (ht : t < 128)
    (o : FVec Ideal S2048x1 .f32 × FVec Ideal S2048x1 .f32 × FVec Ideal S2048x64 .bf16) : Prop :=
  (∀ r : Fin 2048, o.1 (ix2 r 0) =
      if t % 16 = 15 then prefMin (pd A B (rowAt t ht r)) 1024 16 + sqn A (rowAt t ht r)
      else prefMin (pd A B (rowAt t ht r)) 1024 (t % 16 + 1))
  ∧ (∀ r : Fin 2048, o.2.1 (ix2 r 0) = sqn A (rowAt t ht r))
  ∧ (∀ (r : Fin 2048) (k : Fin 64), o.2.2 (ix2 r k) = Ideal.ofBits .f32 0xC0000000#32 * A (ix2 (rowAt t ht r) k))

/-- The running minima met with column tile t % 16: from the minimum over the first t % 16 tiles to the one over t % 16 + 1. -/
theorem meet_tile (A B : FVec Ideal S16384x64 .f32) (t : ℕ) (ht : t < 128) (x1 : FVec Ideal S1024x64 .f32)
    (hx1 : ∀ (q : Fin 1024) (k : Fin 64), x1 (ix2 q k) = B (ix2 (colAt t ht q) k))
    (s1 : FVec Ideal S2048x64 .bf16) (o : FVec Ideal S2048x1 .f32) (r : Fin 2048) (i : Fin 16384)
    (hs1 : ∀ k : Fin 64, s1 (ix2 r k) = Ideal.ofBits .f32 0xC0000000#32 * A (ix2 i k))
    (ho : o (ix2 r 0) = prefMin (pd A B i) 1024 (t % 16)) :
    k0_pay4 (F := Ideal) x1 s1 o (ix2 r 0) = prefMin (pd A B i) 1024 (t % 16 + 1) := by
  rw [pay4_apply, ho, Cert.Lib.Finite.ofBits_inf_f32, ← min_prefMin_tile (pd A B i) 1024 (t % 16) (colAt t ht) (fun q => rfl)]
  refine congrArg (min _) (Finset.fold_congr fun q _ => ?_)
  show _ = pd A B i (colAt t ht q)
  unfold pd
  refine congrArg₂ (· + ·) (Finset.sum_congr rfl fun k _ => ?_) (Finset.sum_congr rfl fun k _ => ?_)
  · rw [hs1, hx1]
  · rw [hx1]

/-- CASE A: the first point of a row tile establishes the invariant. -/
theorem step_A (A B : FVec Ideal S16384x64 .f32) (t : ℕ) (ht : t < 128) (h0 : t % 16 = 0)
    (x0 : FVec Ideal S2048x64 .f32) (x1 : FVec Ideal S1024x64 .f32)
    (hx0 : ∀ (r : Fin 2048) (k : Fin 64), x0 (ix2 r k) = A (ix2 (rowAt t ht r) k))
    (hx1 : ∀ (q : Fin 1024) (k : Fin 64), x1 (ix2 q k) = B (ix2 (colAt t ht q) k)) :
    Inv A B t ht (k0_pay4 (F := Ideal) x1 (k0_pay2 (F := Ideal) x0) (k0_pay3 (F := Ideal)), k0_pay1 (F := Ideal) x0, k0_pay2 (F := Ideal) x0) := by
  have hs1 : ∀ (r : Fin 2048) (k : Fin 64), k0_pay2 (F := Ideal) x0 (ix2 r k) = Ideal.ofBits .f32 0xC0000000#32 * A (ix2 (rowAt t ht r) k) :=
    fun r k => by rw [pay2_apply, hx0]
  refine ⟨fun r => ?_, fun r => ?_, hs1⟩
  · rw [if_neg (by omega)]
    refine meet_tile A B t ht x1 hx1 (k0_pay2 (F := Ideal) x0) (k0_pay3 (F := Ideal)) r _ (hs1 r) ?_
    rw [pay3_apply, Cert.Lib.Finite.ofBits_inf_f32, h0, prefMin_zero]
  · show k0_pay1 (F := Ideal) x0 (ix2 r 0) = _
    rw [pay1_apply]
    exact Finset.sum_congr rfl fun k _ => by rw [hx0]

/-- CASE B: an inner point keeps the invariant. -/
theorem step_B (A B : FVec Ideal S16384x64 .f32) (t : ℕ) (ht : t < 128) (h0 : ¬t % 16 = 0) (h1 : ¬t % 16 = 15)
    (x1 : FVec Ideal S1024x64 .f32) (hx1 : ∀ (q : Fin 1024) (k : Fin 64), x1 (ix2 q k) = B (ix2 (colAt t ht q) k))
    (o : FVec Ideal S2048x1 .f32 × FVec Ideal S2048x1 .f32 × FVec Ideal S2048x64 .bf16)
    (hprev : Inv A B (t - 1) (by omega) o) :
    Inv A B t ht (k0_pay4 (F := Ideal) x1 o.2.2 o.1, o.2.1, o.2.2) := by
  have hrow : ∀ r, rowAt (t - 1) (by omega) r = rowAt t ht r := fun r => Fin.ext (by
    show 2048 * ((t - 1) / 16) + r.val = 2048 * (t / 16) + r.val; omega)
  obtain ⟨ho, hs0, hs1⟩ := hprev
  refine ⟨fun r => ?_, fun r => ?_, fun r k => ?_⟩
  · rw [if_neg h1]
    refine meet_tile A B t ht x1 hx1 o.2.2 o.1 r _ (fun k => by rw [hs1, hrow]) ?_
    rw [ho, if_neg (by omega), hrow]
    congr 1; omega
  · show o.2.1 (ix2 r 0) = _
    rw [hs0, hrow]
  · show o.2.2 (ix2 r k) = _
    rw [hs1, hrow]

/-- CASE C: the last point of a row tile completes the minimum and adds the row's squared norm. -/
theorem step_C (A B : FVec Ideal S16384x64 .f32) (t : ℕ) (ht : t < 128) (h0 : ¬t % 16 = 0) (h1 : t % 16 = 15)
    (x1 : FVec Ideal S1024x64 .f32) (hx1 : ∀ (q : Fin 1024) (k : Fin 64), x1 (ix2 q k) = B (ix2 (colAt t ht q) k))
    (o : FVec Ideal S2048x1 .f32 × FVec Ideal S2048x1 .f32 × FVec Ideal S2048x64 .bf16)
    (hprev : Inv A B (t - 1) (by omega) o) :
    Inv A B t ht (k0_pay5 (F := Ideal) (k0_pay4 (F := Ideal) x1 o.2.2 o.1) o.2.1, o.2.1, o.2.2) := by
  have hrow : ∀ r, rowAt (t - 1) (by omega) r = rowAt t ht r := fun r => Fin.ext (by
    show 2048 * ((t - 1) / 16) + r.val = 2048 * (t / 16) + r.val; omega)
  obtain ⟨ho, hs0, hs1⟩ := hprev
  refine ⟨fun r => ?_, fun r => ?_, fun r k => ?_⟩
  · show k0_pay5 (F := Ideal) (k0_pay4 (F := Ideal) x1 o.2.2 o.1) o.2.1 (ix2 r 0) = _
    rw [if_pos h1, pay5_apply, hs0, hrow]
    refine congrArg (· + sqn A (rowAt t ht r)) ?_
    have := meet_tile A B t ht x1 hx1 o.2.2 o.1 r (rowAt t ht r) (fun k => by rw [hs1, hrow]) (by
      rw [ho, if_neg (by omega), hrow]; congr 1; omega)
    rw [this, h1]
  · show o.2.1 (ix2 r 0) = _
    rw [hs0, hrow]
  · show o.2.2 (ix2 r k) = _
    rw [hs1, hrow]

end Cert.KernelIdeal.Steps

end
-- ==== Proof.Fold.lean ====
/-
  The invariant holds after every grid point.

  A window's block at grid point t starts at (block index × block size) on each axis; the index maps give row tile t / 16
  for the first input and the output, column tile t % 16 for the second input. So the blocks the body loads at point t are
  rows 2048·(t/16) + r of the first array and rows 1024·(t%16) + q of the second, which is what the steps of the invariant
  ask. The invariant then follows by induction on the point: a point with t % 16 = 0 starts a row tile afresh, the others
  continue from the point before.
-/
import proofs.«135374_j69054484185809_2_alg».proof.Proof.Gen.KernelIdeal.Frame
import proofs.«135374_j69054484185809_2_alg».proof.Proof.Pieces
import proofs.«135374_j69054484185809_2_alg».proof.Proof.Steps
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Steps

variable (m : (ℓ : Loc nD τ sig) → Buf (Elt Ideal) ℓ)

/-- The two argument arrays as the region finds them. -/
abbrev arrA (c : Dev nD) : FVec Ideal S16384x64 .f32 := V m c main_arg0
abbrev arrB (c : Dev nD) : FVec Ideal S16384x64 .f32 := V m c main_arg1

/-- The index maps over the grid: row tile t / 16 for the first input and the output, column tile t % 16 for the second
    input, block column 0 throughout. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem t_lt (t : Fin cfg0.N) : t.val < 128 := lt_of_lt_of_eq t.isLt (show cfg0.N = 128 from N_0)

/-- The first input's block at point t is rows 2048·(t/16) + r of the first array. -/
theorem iblk0_apply (c : Dev nD) (t : Fin cfg0.N) (r : Fin 2048) (k : Fin 64) :
    (iblk m c 0 t : FVec Ideal S2048x64 .f32) (ix2 r k) = arrA m c (ix2 (rowAt t.val (t_lt t) r) k) := by
  unfold iblk
  rw [View.read_apply]
  show V m c main_arg0 _ = V m c main_arg0 _
  refine congrArg (V m c main_arg0) (funext fun a => Fin.ext ?_)
  match a with
  | ⟨0, _⟩ =>
    show win0_0.index t 0 * 2048 + 1 * r.val = 2048 * (t.val / 16) + r.val
    rw [(idx_facts t).1]; omega
  | ⟨1, _⟩ =>
    show win0_0.index t 1 * 64 + 1 * k.val = k.val
    rw [(idx_facts t).2.1]; omega

/-- The second input's block at point t is rows 1024·(t%16) + q of the second array. -/
theorem iblk1_apply (c : Dev nD) (t : Fin cfg0.N) (q : Fin 1024) (k : Fin 64) :
    (iblk m c 1 t : FVec Ideal S1024x64 .f32) (ix2 q k) = arrB m c (ix2 (colAt t.val (t_lt t) q) k) := by
  unfold iblk
  rw [View.read_apply]
  show V m c main_arg1 _ = V m c main_arg1 _
  refine congrArg (V m c main_arg1) (funext fun a => Fin.ext ?_)
  match a with
  | ⟨0, _⟩ =>
    show win0_1.index t 0 * 1024 + 1 * q.val = 1024 * (t.val % 16) + q.val
    rw [(idx_facts t).2.2.1]; omega
  | ⟨1, _⟩ =>
    show win0_1.index t 1 * 64 + 1 * k.val = k.val
    rw [(idx_facts t).2.2.2.1]; omega

/-- THE INVARIANT after every point, by induction on the point. -/
theorem outsAt_inv (c : Dev nD) : ∀ (n : ℕ) (hn : n < cfg0.N),
    Inv (arrA m c) (arrB m c) n (lt_of_lt_of_eq hn (show cfg0.N = 128 from N_0)) (outsAt0 m c n hn)
  | 0, hn => by
    rw [outsAt0_A m c ⟨0, hn⟩ rfl (by dsimp only; omega), Pieces.out_A, Pieces.sout_A_0, Pieces.sout_A_1]
    exact step_A (arrA m c) (arrB m c) 0 _ rfl (iblk m c 0 ⟨0, hn⟩) (iblk m c 1 ⟨0, hn⟩)
      (iblk0_apply m c ⟨0, hn⟩) (iblk1_apply m c ⟨0, hn⟩)
  | n + 1, hn => by
    have hN : n + 1 < 128 := lt_of_lt_of_eq hn (show cfg0.N = 128 from N_0)
    have ih := outsAt_inv c n (Nat.lt_of_succ_lt hn)
    by_cases h0 : (n + 1) % 16 = 0
    · have h1 : ¬(n + 1) % 16 = 15 := by omega
      rw [outsAt0_A m c ⟨n + 1, hn⟩ h0 h1, Pieces.out_A, Pieces.sout_A_0, Pieces.sout_A_1]
      exact step_A (arrA m c) (arrB m c) (n + 1) _ h0 (iblk m c 0 ⟨n + 1, hn⟩) (iblk m c 1 ⟨n + 1, hn⟩)
        (iblk0_apply m c ⟨n + 1, hn⟩) (iblk1_apply m c ⟨n + 1, hn⟩)
    · by_cases h1 : (n + 1) % 16 = 15
      · rw [outsAt0_C m c ⟨n + 1, hn⟩ h0 h1, Pieces.out_C]
        unfold sout0_C_0 sout0_C_1
        exact step_C (arrA m c) (arrB m c) (n + 1) _ h0 h1 (iblk m c 1 ⟨n + 1, hn⟩) (iblk1_apply m c ⟨n + 1, hn⟩)
          (outsAt0 m c n (Nat.lt_of_succ_lt hn)) ih
      · rw [outsAt0_B m c ⟨n + 1, hn⟩ h0 h1, Pieces.out_B]
        unfold sout0_B_0 sout0_B_1
        exact step_B (arrA m c) (arrB m c) (n + 1) _ h0 h1 (iblk m c 1 ⟨n + 1, hn⟩) (iblk1_apply m c ⟨n + 1, hn⟩)
          (outsAt0 m c n (Nat.lt_of_succ_lt hn)) ih

end Cert.KernelIdeal.Fold

end
-- ==== Proof.Consts.lean ====
/-
  The float words the two programs spell, as the extended reals they denote at the ideal instance: the kernel scales a row by
  −2 before the product, the reference multiplies the product by 2 and subtracts. (The word of +infinity is read in LibFinite.)
-/
import proofs.«135374_j69054484185809_2_alg».proof.Proof.LibFinite

noncomputable section

namespace Cert.DistMin.Consts

open Idealize.ShloMosaic

/-- The f32 word `0xC0000000` denotes the real −2. -/
theorem ofBits_neg_two : Ideal.ofBits .f32 0xC0000000#32 = ((-2 : ℝ) : EReal) := by
  simp [Ideal.ofBits, Ideal.ieee, -EReal.coe_mul]; norm_num

/-- The f32 word `0x40000000` denotes the real 2. -/
theorem ofBits_two : Ideal.ofBits .f32 0x40000000#32 = ((2 : ℝ) : EReal) := by
  simp [Ideal.ofBits, Ideal.ieee, -EReal.coe_mul]; norm_num

end Cert.DistMin.Consts

end
-- ==== Proof.RefValue.lean ====
/-
  The reference's result as the same function of the argument arrays as the kernel's — for real entries.

  The reference forms, for every row i and column j, (0 + sum_k A_ik^2) + (0 + sum_k B_jk^2) − 2·sum_k A_ik B_jk, takes the
  minimum over j from +infinity, and sums the 16384 minima from 0. The kernel's array holds, at row i, the minimum over j of
  sum_k ((−2)·A_ik)·B_jk + sum_k B_jk^2, plus sum_k A_ik^2. For real entries the two rows agree (the law of DistLaw).
-/
import proofs.«135374_j69054484185809_2_alg».proof.Proof.Gen.ReferenceIdeal.Read
import proofs.«135374_j69054484185809_2_alg».proof.Proof.Steps
import proofs.«135374_j69054484185809_2_alg».proof.Proof.DistLaw
import proofs.«135374_j69054484185809_2_alg».proof.Proof.Consts
import Idealize.ShloMosaic.Lib.ValueIdx
import Idealize.ShloMosaic.PureOps.Ideal.Laws

noncomputable section

open Idealize.ShloMosaic Idealize.ShloMosaic.ValueIdx

namespace Cert.KernelIdeal.Steps

open Cert.DistMin

/-- Row i of the kernel's output array after the run: the minimum over all 16 column tiles, plus the row's squared norm. -/
def rowVal (A B : FVec Ideal S16384x64 .f32) (i : Fin 16384) : EReal := prefMin (pd A B i) 1024 16 + sqn A i

/-- THE RESULT both programs end with: the sum of the rows' values, from the zero the host's sum starts with. -/
def total (A B : FVec Ideal S16384x64 .f32) : FVec Ideal S_ .f32 :=
  fun _ => Ideal.ofBits .f32 0x00000000#32 + ∑ i : Fin 16384, rowVal A B i

end Cert.KernelIdeal.Steps

namespace Cert.ReferenceIdeal.RefValue

open Cert.ReferenceIdeal Cert.ReferenceIdeal.Gen Cert.ReferenceIdeal.Read Cert.DistMin
open Cert.KernelIdeal.Steps (rowVal total pd sqn)

/-- The reference's distance matrix at (i, j). -/
theorem v12_at (x0 x1 : FVec Ideal S16384x64 .f32) (i j : Fin 16384) :
    val_main_v12 (F := Ideal) x0 x1 (ix2 i j)
      = ((Ideal.ofBits .f32 0x00000000#32 + ∑ k : Fin 64, x0 (ix2 i k) * x0 (ix2 i k))
          + (Ideal.ofBits .f32 0x00000000#32 + ∑ k : Fin 64, x1 (ix2 j k) * x1 (ix2 j k)))
        - Ideal.ofBits .f32 0x40000000#32 * ∑ k : Fin 64, x0 (ix2 i k) * x1 (ix2 j k) := by
  have e1 : ∀ k : Fin 64, idx_main_v1 (idx_main_v5 (idx_main_v7 (ix2 i j))) k = ix2 i k := fun k =>
    funext fun a => Fin.ext (by match a with | ⟨0, _⟩ => rfl | ⟨1, _⟩ => rfl)
  have e3 : ∀ k : Fin 64, idx_main_v3 (idx_main_v6 (idx_main_v8 (ix2 i j))) k = ix2 j k := fun k =>
    funext fun a => Fin.ext (by match a with | ⟨0, _⟩ => rfl | ⟨1, _⟩ => rfl)
  have el : ∀ k : Fin 64, lidx_main_v4 (ix2 i j) k = ix2 i k := fun k =>
    funext fun a => Fin.ext (by match a with | ⟨0, _⟩ => rfl | ⟨1, _⟩ => rfl)
  have er : ∀ k : Fin 64, ridx_main_v4 (ix2 i j) k = ix2 j k := fun k =>
    funext fun a => Fin.ext (by match a with | ⟨0, _⟩ => rfl | ⟨1, _⟩ => rfl)
  rw [val_main_v12_apply, val_main_v9_apply, val_main_v7_apply, val_main_v5_apply, val_main_v1_apply, val_main_v8_apply,
    val_main_v6_apply, val_main_v3_apply, val_main_v11_apply, val_main_v10_apply, val_main_cst_1_apply, val_main_v4_apply]
  simp only [e1, e3, el, er, val_main_v0_apply, val_main_v2_apply, val_main_cst_apply, val_main_cst_0_apply,
    Ideal.mulf_def, Ideal.addf_def, Ideal.subf_def, Ideal.ofBits_def]

/-- The reference's row minimum at i: the minimum from +infinity over all columns of the distance matrix's row. -/
theorem v13_at (x0 x1 : FVec Ideal S16384x64 .f32) (i : Fin 16384) :
    val_main_v13 (F := Ideal) x0 x1 (ix1 i)
      = (Finset.univ : Finset (Fin 16384)).fold min (Ideal.ofBits .f32 0x7F800000#32) fun j => val_main_v12 (F := Ideal) x0 x1 (ix2 i j) := by
  unfold val_main_v13
  refine (Host.reduce_eq_fold_single FloatOps.minimumf _ _ reducesTo_S16384x16384_S16384_d1 (by decide) h_S_ (ix1 i)).trans ?_
  refine Finset.fold_congr fun j _ => ?_
  exact congrArg (val_main_v12 (F := Ideal) x0 x1) (funext fun a => Fin.ext (by match a with | ⟨0, _⟩ => rfl | ⟨1, _⟩ => rfl))

/-- A rank-1 index is its one coordinate. -/
def idxEquiv1 {n : ℕ} : (⟨1, ![n]⟩ : Shape).Idx ≃ Fin n where
  toFun j := j 0
  invFun a := ix1 a
  left_inv j := (eq_ix1 j).symm
  right_inv _ := rfl

/-- For real entries, the reference's row minimum is the kernel's row value. -/
theorem row_eq (x0 x1 : FVec Ideal S16384x64 .f32) (a b : Fin 16384 → Fin 64 → ℝ)
    (ha : ∀ i k, x0 (ix2 i k) = (a i k : EReal)) (hb : ∀ j k, x1 (ix2 j k) = (b j k : EReal)) (i : Fin 16384) :
    val_main_v13 (F := Ideal) x0 x1 (ix1 i) = rowVal x0 x1 i := by
  rw [v13_at]
  unfold rowVal
  rw [prefMin_full _ _ _ (by decide)]
  unfold pd sqn
  simp only [v12_at, ha, hb, Cert.Lib.Finite.ofBits_inf_f32, Consts.ofBits_neg_two, Consts.ofBits_two, Ideal.ofBits_zero_f32]
  exact (row_law a b i).symm

/-- THE REFERENCE IS `total`, for real entries. -/
theorem ref_total (x0 x1 : FVec Ideal S16384x64 .f32) (hfin0 : ∀ y, ∃ r : ℝ, x0 y = (r : EReal)) (hfin1 : ∀ y, ∃ r : ℝ, x1 y = (r : EReal)) :
    val_main_v14 (F := Ideal) x0 x1 = total x0 x1 := by
  choose a ha using fun (i : Fin 16384) (k : Fin 64) => hfin0 (ix2 i k)
  choose b hb using fun (j : Fin 16384) (k : Fin 64) => hfin1 (ix2 j k)
  funext y
  rw [val_main_v14_apply]
  unfold total
  refine congrArg₂ (· + ·) rfl ?_
  refine (Fintype.sum_equiv idxEquiv1 _ _ fun j => ?_)
  rw [eq_ix1 j]
  exact row_eq x0 x1 a b ha hb (j 0)

end Cert.ReferenceIdeal.RefValue

end
-- ==== Proof.KernelValue.lean ====
/-
  The kernel's run, read: its result is `total` of the argument arrays.

  After the last point of row tile n the output block holds, at row r, the minimum over all columns plus the row's squared
  norm (the invariant at t = 16 n + 15), and that is the one point of the row tile whose block is written back: the 8 row
  tiles fill the 16384 × 1 array, every row of it at its row value. The host then sums the array from zero.
-/
import proofs.«135374_j69054484185809_2_alg».proof.Proof.Fold
import proofs.«135374_j69054484185809_2_alg».proof.Proof.RefValue
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Steps Cert.KernelIdeal.Fold

variable (m : (ℓ : Loc nD τ sig) → Buf (Elt Ideal) ℓ) (ρ : Dev nD → PrngReg)

/-- The kernel's output array after the run: every row at its row value. -/
def outArr (A B : FVec Ideal S16384x64 .f32) : FVec Ideal S16384x1 .f32 := fun i => rowVal A B ⟨(i 0).val, idx2_lt0 i⟩

/-- What the invariant says of the output block at any of its indices, after the last point of a row tile. -/
theorem out_at {A B : FVec Ideal S16384x64 .f32} {t : ℕ} {ht : t < 128}
    {o : FVec Ideal S2048x1 .f32 × FVec Ideal S2048x1 .f32 × FVec Ideal S2048x64 .bf16} (h : Inv A B t ht o) (h15 : t % 16 = 15)
    (y : S2048x1.Idx) : o.1 y = rowVal A B (rowAt t ht ⟨(y 0).val, idx2_lt0 y⟩) := by
  have hy : y = ix2 ⟨(y 0).val, idx2_lt0 y⟩ 0 := funext fun a => Fin.ext (by
    match a with
    | ⟨0, _⟩ => rfl
    | ⟨1, _⟩ => have := idx2_lt1 y; show (y 1).val = 0; omega)
  have h1 := h.1 ⟨(y 0).val, idx2_lt0 y⟩
  rw [if_pos h15] at h1
  unfold rowVal
  rw [← h1]
  exact congrArg o.1 hy

/-- What the last point of a row tile writes back is its block of the row values. -/
theorem flushed_eq (c : Dev nD) (t : Fin cfg0.N) (hf : (cfg0.win 2).flush t = true) :
    (dats m 0 c).flushed 2 t = ((cfg0.win 2).blk t).view.read (Elt Ideal) (outArr (arrA m c) (arrB m c)) := by
  have h15 : t.val % 16 = 15 := (flush0_2 t).mp hf
  show (cfg0.win 2).cut (grid0.coords t) ((dats m 0 c).after 2 t) = _
  rw [after0_2]
  funext j
  show (outsAt0 m c t.val t.isLt).1 j = outArr (arrA m c) (arrB m c) (((cfg0.win 2).blk t).view.emb j)
  refine (out_at (outsAt_inv m c t.val t.isLt) h15 j).trans ?_
  unfold outArr
  refine congrArg (rowVal (arrA m c) (arrB m c)) (Fin.ext ?_)
  show 2048 * (t.val / 16) + (j 0).val = win0_2.index t 0 * 2048 + 1 * (j 0).val
  rw [(idx_facts t).2.2.2.2.1]; omega

/-- An index of the output array is in point t's block iff each coordinate is in the block's range. -/
theorem mem_blk (t : Fin cfg0.N) (i : S16384x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_call0_v0).slice (win0_2.rect t)).set ↔ _
  rw [View.set_slice_whole, Rect.mem_set_unit]
  exact Iff.rfl

/-- THE OUTPUT ARRAY after the run: row i of it is written back by the last point of row tile i / 2048. -/
theorem final_out (c : Dev nD) : (dats m 0 c).arrAt 2 cfg0.N = outArr (arrA m c) (arrB m c) :=
  (dats m 0 c).arrAt_eq_of_cover 2 (outArr (arrA m c) (arrB m c)) (flushed_eq m c) fun i => by
    have hi0 : (i 0).val < 16384 := idx2_lt0 i
    have hi1 : (i 1).val < 1 := idx2_lt1 i
    have hlt : 16 * ((i 0).val / 2048) + 15 < cfg0.N := lt_of_lt_of_eq (by omega) (show cfg0.N = 128 from N_0).symm
    refine ⟨⟨16 * ((i 0).val / 2048) + 15, hlt⟩, (flush0_2 _).mpr (by dsimp only; omega), ?_⟩
    rw [mem_blk]
    obtain ⟨-, -, -, -, e4, e5⟩ := idx_facts ⟨16 * ((i 0).val / 2048) + 15, hlt⟩
    intro a
    match a with
    | ⟨0, _⟩ =>
      show win0_2.index ⟨16 * ((i 0).val / 2048) + 15, hlt⟩ 0 * 2048 ≤ (i 0).val ∧ (i 0).val < win0_2.index ⟨16 * ((i 0).val / 2048) + 15, hlt⟩ 0 * 2048 + 2048
      rw [e4]; dsimp only; omega
    | ⟨1, _⟩ =>
      show win0_2.index ⟨16 * ((i 0).val / 2048) + 15, hlt⟩ 1 * 1 ≤ (i 1).val ∧ (i 1).val < win0_2.index ⟨16 * ((i 0).val / 2048) + 15, hlt⟩ 1 * 1 + 1
      rw [e5]; omega

/-- The host's sum of the output array from zero is `total`. -/
theorem sum_outArr (A B : FVec Ideal S16384x64 .f32) :
    Host.reduceAdd (F := Ideal) (outArr A B) (constant (F := Ideal) S_ .f32 0x00000000#32) reducesTo_S16384x1_S_d0_1 h_S_ = total A B := by
  funext y
  simp only [Host.reduceAdd, Ideal.hostReduceAdd_def]
  rw [Ideal.hostReduceAdd_total reducesTo_S16384x1_S_d0_1 (fun b => b.elim0)]
  unfold total
  refine congrArg₂ (· + ·) rfl ?_
  rw [sum_idx2]
  refine Finset.sum_congr rfl fun a _ => ?_
  rw [Fin.sum_univ_one]
  rfl

/-- The result buffer after the lines that follow the region: the host's sum of the output array as the region leaves it. -/
theorem tail_eq (c : Dev nD) :
    Pipeline.afterTail₀ cfgs (dats m) 0 (V0 m) [hostOps1] c main_v0 = total (arrA m c) (arrB m c) := by
  unfold Pipeline.afterTail₀
  show StableHlo.after hostOps1 _ (Proc.devRef .tc main_v0) = _
  after_results
  rw [(Pipeline.withArrays_arr spec0 launch0.win.arr_inj c _ _ 2).trans (final_out m c)]
  exact sum_outArr _ _

/-- THE RUN, READ: every weakly fair execution terminates with the result at `total` of the argument arrays and the
    arguments unchanged. -/
theorem run : θ_run defs (onTc (τ := τ) (main (F := Ideal))) ⟨m, fun _ => 0, ρ⟩ fun r => ∀ c : Dev nD,
      r.2.mem ((c : Thread nD τ).loc main_v0) = total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v0 (by decide)).trans ((tail_eq m c).trans (by
        rw [show arrA m c = m ((c : Thread nD τ).loc main_arg0) from V_main_arg0 m c,
          show arrB m c = m ((c : Thread nD τ).loc main_arg1) from V_main_arg1 m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.Finite.lean ====
/-
  From the precondition to real entries.

  The precondition is the conjunction of two checks, one per argument array: all(|x| < +inf). The conjunction is 1 exactly when
  both checks are, and an array that passes the check holds only reals.
-/
import proofs.«135374_j69054484185809_2_alg».proof.Proof.LibFinite
import proofs.«135374_j69054484185809_2_alg».proof.Pre_finite_inputs
import Idealize.ShloMosaic.Lib.Affine

noncomputable section

open Idealize.ShloMosaic

namespace Cert.Pre_finite_inputs.Finite

open Cert.Pre_finite_inputs

variable [Facts]

/-- Both argument arrays of a launch that passes the precondition hold only reals. -/
theorem reals_of_pre (x0 x1 : FVec Ideal S16384x64 .f32) (h : fn (F := Ideal) x0 x1 = fun _ => 1#1) :
    (∀ y, ∃ r : ℝ, x0 y = (r : EReal)) ∧ (∀ y, ∃ r : ℝ, x1 y = (r : EReal)) := by
  have h' := congrFun h ValueIdx.ix0
  dsimp only [fn] at h'
  obtain ⟨h0, h1⟩ := IntOp.andi_eq_one.mp h'
  exact ⟨fun y => Cert.Lib.Finite.real_of_all_finite x0 _ _ _ _ h0 y,
    fun y => Cert.Lib.Finite.real_of_all_finite x1 _ _ _ _ h1 y⟩

end Cert.Pre_finite_inputs.Finite

end
-- ==== Proof.lean ====
/-
  The sum over the rows of one point set of the squared distance to the nearest point of another, two ways.

  Both programs take two arrays of 16384 points in R^64 and return one number: the sum over the rows a_i of the first of
  min_j |a_i − b_j|^2. The reference expands the square, (0 + |a_i|^2) + (0 + |b_j|^2) − 2 a_i·b_j, takes the row minimum over
  all 16384 columns from +infinity, and sums from 0. The kernel walks a grid of 8 row tiles × 16 column tiles: at the first
  column tile of a row tile it keeps |a_i|^2 and −2 a_i and starts the minima at +infinity; at every column tile it meets the
  minima with min_j ((−2 a_i)·b_j + |b_j|^2) over the tile's 1024 columns; at the last it adds |a_i|^2 and the block is written
  back; the host sums the 16384 entries from 0.
  At the ideal instance both are the same extended real whenever the entries are real, which the precondition gives:
  the factor −2 leaves the inner sum, a minimum over all columns is the minimum of the tile minima, and adding |a_i|^2
  commutes with the minimum (DistLaw). The kernel's side needs no finiteness; the reference is brought to the kernel's form.

  The word-level kernel and its idealization are framed by their generated frames; the reference's frame is its generated
  run with the result dropped; the idealization rewrote nothing.
-/
import proofs.«135374_j69054484185809_2_alg».proof.Defs
import proofs.«135374_j69054484185809_2_alg».proof.Proof.Gen.Kernel
import proofs.«135374_j69054484185809_2_alg».proof.Proof.Gen.Kernel.Frame
import proofs.«135374_j69054484185809_2_alg».proof.Proof.Gen.KernelIdeal
import proofs.«135374_j69054484185809_2_alg».proof.Proof.Gen.KernelIdeal.Frame
import proofs.«135374_j69054484185809_2_alg».proof.Proof.Gen.ReferenceIdeal
import proofs.«135374_j69054484185809_2_alg».proof.Proof.Gen.ReferenceIdeal.Run
import proofs.«135374_j69054484185809_2_alg».proof.Proof.Gen.ReferenceIdeal.Read
import proofs.«135374_j69054484185809_2_alg».proof.Proof.Gen.Pre_finite_inputs
import proofs.«135374_j69054484185809_2_alg».proof.Proof.KernelValue
import proofs.«135374_j69054484185809_2_alg».proof.Proof.RefValue
import proofs.«135374_j69054484185809_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arrays, and real entries, both programs end with the same sum of row values. -/
theorem algebraic : Cert.algebraic_KernelIdeal_ReferenceIdeal := by
  intro m ρ m' ρ' hpre hagree
  refine ⟨fun c => Cert.KernelIdeal.Steps.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  obtain ⟨f0, f1⟩ := Cert.Pre_finite_inputs.Finite.reals_of_pre _ _ (hpre c)
  exact Cert.ReferenceIdeal.RefValue.ref_total _ _ f0 f1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
